-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4 .f32) : IVec S_ 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  main_v3
-- ==== Kernel.lean ====
abbrev S4096x4 : Shape := ⟨2, ![4096, 4]⟩
abbrev S4x4096 : Shape := ⟨2, ![4, 4096]⟩
abbrev S4x4096x1 : Shape := ⟨3, ![4, 4096, 1]⟩
abbrev S4x1x4096 : Shape := ⟨3, ![4, 1, 4096]⟩
abbrev S8x4096x4096 : Shape := ⟨3, ![8, 4096, 4096]⟩
abbrev S1x1024x1 : Shape := ⟨3, ![1, 1024, 1]⟩
abbrev S1x1x4096 : Shape := ⟨3, ![1, 1, 4096]⟩
abbrev S1x1024x4096 : Shape := ⟨3, ![1, 1024, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x1x4096, .f32⟩
  | .hbm, ⟨4, _⟩ => ⟨S8x4096x4096, .f32⟩
  | .local _ .vmem, ⟨0, _⟩ => ⟨S1x1024x1, .f32⟩
  | .local _ .vmem, ⟨1, _⟩ => ⟨S1x1024x1, .f32⟩
  | .local _ .vmem, ⟨2, _⟩ => ⟨S1x1x4096, .f32⟩
  | .local _ .vmem, ⟨3, _⟩ => ⟨S1x1x4096, .f32⟩
  | .local _ .vmem, ⟨4, _⟩ => ⟨S1x1024x4096, .f32⟩
  | .local _ .vmem, ⟨5, _⟩ => ⟨S1x1024x4096, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  broadcasts_S1x1024x1_S1x1024x4096 : S1x1024x1.Broadcasts S1x1024x4096
  inb_S1x1024x4096_S1x1024x4096_0_0_0 : ∀ a, (![0, 0, 0] : Fin 3 → Nat) a + S1x1024x4096.size a ≤ S1x1024x4096.size a
  h_S1x1024x4096 : 0 < S1x1024x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x1024x4096 : S1x1x4096.Broadcasts S1x1024x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S4x4096x1.size a
  hwx0_0 : ∀ i : grid0.Coords, EltTy.bits .f32 = 32 ∨ (Rect.block (s := S4x4096x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S4x1x4096.size a
  hwx0_1 : ∀ i : grid0.Coords, EltTy.bits .f32 = 32 ∨ (Rect.block (s := S4x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x4096.size a ≤ S8x4096x4096.size a
  hwx0_2 : ∀ i : grid0.Coords, EltTy.bits .f32 = 32 ∨ (Rect.block (s := S8x4096x4096) S1x1024x4096.size (cc0_transform_2 i) (hinb0_2 i)).WholeWords (EltTy.packing .f32)

variable [Facts₀]

abbrev win0_0 : Pipeline.Window sig grid0 :=
  Pipeline.Window.ofSpec (Memref.whole main_v1) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x4 : Shape := ⟨2, ![4096, 4]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S8x4096x4096 : Shape := ⟨3, ![8, 4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x4096x4096, .f32⟩
  | .hbm, ⟨4, _⟩ => ⟨S4x1x4096, .f32⟩
  | .hbm, ⟨5, _⟩ => ⟨S4x4096x4096, .f32⟩
  | .hbm, ⟨6, _⟩ => ⟨S8x4096x4096, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  concatenates_S4x4096x4096_S4x4096x4096_S8x4096x4096_d0 : Shape.Concatenates [S4x4096x4096, S4x4096x4096] S8x4096x4096 0

variable [Facts₀]

class Facts : Prop extends Facts₀ where

variable [Facts]
-- ==== Proof.Spec.lean ====
/-
  The specification both programs are compared against: the array of eight channel planes built from a
  table `x` of 4096 rows and 4 columns by pure replication. Channel `c < 4` is column `c` of the table spread along
  the last axis — entry `(c, i, j)` is `x i c`, whatever `j` —, and channel `c ≥ 4` is column `c - 4` spread along the
  middle axis — entry `(c, i, j)` is `x j (c - 4)`, whatever `i`. No arithmetic is involved, so the function is stated
  for an arbitrary element type and nothing about it depends on the entries being finite.
-/
import Idealize.ShloMosaic.PureOps.Ideal
import Idealize.ShloMosaic.Lib.ValueIdx

noncomputable section

namespace Cert.Replicate

open Idealize.ShloMosaic Idealize.ShloMosaic.ValueIdx

/-- The shape of the table: 4096 positions, 4 classes. -/
abbrev STable : Shape := ⟨2, ![4096, 4]⟩
/-- The shape of the result: 8 channels of 4096 × 4096 planes. -/
abbrev SPlanes : Shape := ⟨3, ![8, 4096, 4096]⟩

/-- The channel coordinate of a result index is below 8, in the form arithmetic can use. -/
theorem chan_lt (j : SPlanes.Idx) : (j 0).val < 8 := (j 0).isLt

/-- The replicated planes: channels `0 … 3` read the table at (middle coordinate, channel), channels `4 … 7` read it at
    (last coordinate, channel - 4). -/
def planes {α : Type} (x : STable.Idx → α) : SPlanes.Idx → α := fun j =>
  if h : (j 0).val < 4 then x (ix2 (j 1) ⟨(j 0).val, h⟩)
  else x (ix2 (j 2) ⟨(j 0).val - 4, by have := chan_lt j; omega⟩)

/-- In the first four channels the entry is the table's, at the middle coordinate. -/
theorem planes_low {α : Type} (x : STable.Idx → α) (j : SPlanes.Idx) (h : (j 0).val < 4) :
    planes x j = x (ix2 (j 1) ⟨(j 0).val, h⟩) := dif_pos h

/-- In the last four channels the entry is the table's, at the last coordinate, the channel counted from 4. -/
theorem planes_high {α : Type} (x : STable.Idx → α) (j : SPlanes.Idx) (h : ¬(j 0).val < 4) :
    planes x j = x (ix2 (j 2) ⟨(j 0).val - 4, by have := chan_lt j; omega⟩) := dif_neg h

end Cert.Replicate

end
-- ==== Proof.RefValue.lean ====
/-
  The reference's result is the specification. The reference transposes the table, spreads the transposed table once
  along a new last axis and once along a new middle axis, each to four full planes, and joins the two groups of four
  planes along the channel axis. Read at an index `(c, i, j)`: in the first group (`c < 4`) the join reads the first
  operand at `(c, i, j)`, whose two broadcasts forget `j` and whose transpose swaps the remaining pair, leaving the
  table at `(i, c)`; in the second group the join reads the second operand at `(c - 4, i, j)`, whose broadcasts forget
  `i`, leaving the table at `(j, c - 4)`. These are the two branches of `Cert.Replicate.planes`.
-/
import proofs.«106511_j89575837926133_2_alg».proof.Proof.Gen.ReferenceIdeal.Read
import proofs.«106511_j89575837926133_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Replicate

variable {F : FTy → Type} [FloatOps F]

/-- The first group of planes at `(c, i, j)` is the table at `(i, c)`: two broadcasts that drop the last coordinate,
    then the transpose. -/
theorem rows_apply (x : (⟨S4096x4, .f32⟩ : BufTy).Contents (Elt F)) (c : Fin 4) (i j : Fin 4096) :
    val_main_v2 (F := F) x (ix3 c i j) = x (ix2 i c) := by
  rw [val_main_v2_apply, val_main_v1_apply, val_main_v0_apply]
  exact congrArg x (funext fun a => match a with | ⟨0, _⟩ => rfl | ⟨1, _⟩ => rfl)

/-- The second group of planes at `(c, i, j)` is the table at `(j, c)`: two broadcasts that drop the middle coordinate,
    then the transpose. -/
theorem cols_apply (x : (⟨S4096x4, .f32⟩ : BufTy).Contents (Elt F)) (c : Fin 4) (i j : Fin 4096) :
    val_main_v4 (F := F) x (ix3 c i j) = x (ix2 j c) := by
  rw [val_main_v4_apply, val_main_v3_apply, val_main_v0_apply]
  exact congrArg x (funext fun a => match a with | ⟨0, _⟩ => rfl | ⟨1, _⟩ => rfl)

/-- The joined array is the specification, index by index: a channel below 4 falls in the first operand of the join,
    a channel from 4 on in the second, four channels further down. -/
theorem result_eq (x : (⟨S4096x4, .f32⟩ : BufTy).Contents (Elt F)) : val_main_v5 (F := F) x = planes x := by
  funext j
  unfold val_main_v5
  have h8 : (j 0).val < 8 := chan_lt j
  by_cases h : (j 0).val < 4
  · rw [planes_low x j h]
    refine (concatenate_pair_apply_left (t := S8x4096x4096) (s₁ := S4x4096x4096) (s₂ := S4x4096x4096) 0 _ _
      concatenates_S4x4096x4096_S4x4096x4096_S8x4096x4096_d0 j rfl (ix3 (⟨(j 0).val, h⟩ : Fin 4) (j 1) (j 2))
      (fun b => match b with | ⟨0, _⟩ => rfl | ⟨1, _⟩ => rfl | ⟨2, _⟩ => rfl)).trans ?_
    exact rows_apply x _ _ _
  · rw [planes_high x j h]
    refine (concatenate_pair_apply_right (t := S8x4096x4096) (s₁ := S4x4096x4096) (s₂ := S4x4096x4096) 0 _ _
      concatenates_S4x4096x4096_S4x4096x4096_S8x4096x4096_d0 j rfl rfl
      (ix3 (⟨(j 0).val - 4, by omega⟩ : Fin 4) (j 1) (j 2))
      (fun b hb => match b, hb with | ⟨0, _⟩, hb => absurd rfl hb | ⟨1, _⟩, _ => rfl | ⟨2, _⟩, _ => rfl) ?_).trans ?_
    · show (j 0).val - 4 + 4 = (j 0).val
      omega
    · exact cols_apply x _ _ _

end Cert.ReferenceIdeal.RefValue

end
-- ==== Proof.Body.lean ====
/-
  What the kernel body leaves in the output block at one grid point. The body has two exclusive branches on the first
  grid coordinate. In the first branch it loads the whole column block (1 × 1024 × 1) and stores its broadcast along the
  last axis over the whole output block (1 × 1024 × 4096); in the second it loads the whole row block (1 × 1 × 4096) and
  stores its broadcast along the middle axis. Each branch is one store covering the block, so what the block holds
  afterwards is that store's value, and that value at `(0, r, l)` is the column block at `(0, r, 0)`, respectively the row
  block at `(0, 0, l)`. Nothing here depends on the element type.
-/
import proofs.«106511_j89575837926133_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Body

open Cert.KernelIdeal Cert.KernelIdeal.Gen
open Idealize.ShloMosaic Idealize.ShloMosaic.TcCoe Idealize.SL.Sem Idealize.ShloMosaic.ValueIdx

variable {F : FTy → Type} [FloatOps F]

/-- The offset of every load and store of the body: the origin of its block. -/
theorem origin : (![0, 0, 0] : Fin 3 → Nat) = fun _ => 0 := funext fun a => by fin_cases a <;> rfl

/-- FIRST BRANCH: the output block ends holding the column block spread along the last axis. -/
theorem spreadCols (c : Dev nD) (i : grid0.Coords) (a3 : Memref sig .tc .vmem S1x1024x1 .f32) (h3 : a3.IsWhole)
    (a4 : Memref sig .tc .vmem S1x1x4096 .f32) (h4 : a4.IsWhole) (a5 : Memref sig .tc .vmem S1x1024x4096 .f32)
    (h5 : a5.IsWhole) (hc0 : cond0_0 i) (hc1 : ¬cond0_1 i) (x0 : Vec F S1x1024x1 .f32) (x1 : Vec F S1x1x4096 .f32) :
    out0_A_2 c i a3 h3 a4 h4 a5 h5 hc0 hc1 x0 x1 = k0_pay1 x0 := by
  unfold out0_A_2
  rw [View.read_writes_eq_canon _ _ _ (cover0_A_2 c i a3 h3 a4 h4 a5 h5 hc0 hc1 x0 x1)]
  unfold kernelRun0_A
  dsimp only
  rw [View.canon_unit_zero origin]
  simp only [View.readAt_eq_ld, h3.read_unread, View.ld_unit_zero (S := S1x1024x1) origin]

/-- SECOND BRANCH: the output block ends holding the row block spread along the middle axis. -/
theorem spreadRows (c : Dev nD) (i : grid0.Coords) (a3 : Memref sig .tc .vmem S1x1024x1 .f32) (h3 : a3.IsWhole)
    (a4 : Memref sig .tc .vmem S1x1x4096 .f32) (h4 : a4.IsWhole) (a5 : Memref sig .tc .vmem S1x1024x4096 .f32)
    (h5 : a5.IsWhole) (hc0 : ¬cond0_0 i) (hc1 : cond0_1 i) (x0 : Vec F S1x1024x1 .f32) (x1 : Vec F S1x1x4096 .f32) :
    out0_B_2 c i a3 h3 a4 h4 a5 h5 hc0 hc1 x0 x1 = k0_pay2 x1 := by
  unfold out0_B_2
  rw [View.read_writes_eq_canon _ _ _ (cover0_B_2 c i a3 h3 a4 h4 a5 h5 hc0 hc1 x0 x1)]
  unfold kernelRun0_B
  dsimp only
  rw [View.canon_unit_zero origin]
  simp only [View.readAt_eq_ld, h4.read_unread, View.ld_unit_zero (S := S1x1x4096) origin]

/-- The column block spread along the last axis, at `(u, r, l)`, is the column block at row `r`. -/
theorem spreadCols_apply (x0 : Vec F S1x1024x1 .f32) (u : Fin 1) (r : Fin 1024) (l : Fin 4096) :
    k0_pay1 x0 (ix3 u r l) = x0 (ix3 (0 : Fin 1) r (0 : Fin 1)) := by
  unfold k0_pay1
  simp only [shapeCast_self]
  exact broadcastTo_apply x0 broadcasts_S1x1024x1_S1x1024x4096 (ix3 u r l) (ix3 (0 : Fin 1) r (0 : Fin 1)) (fun a => match a with
    | ⟨0, _⟩ => by show (0 : Fin 1).val = if (1 : Nat) = 1 then 0 else u.val; rw [if_pos rfl]; rfl
    | ⟨1, _⟩ => by show r.val = if (1024 : Nat) = 1 then 0 else r.val; rw [if_neg (by decide)]
    | ⟨2, _⟩ => by show (0 : Fin 1).val = if (1 : Nat) = 1 then 0 else l.val; rw [if_pos rfl]; rfl)

/-- The row block spread along the middle axis, at `(u, r, l)`, is the row block at lane `l`. -/
theorem spreadRows_apply (x1 : Vec F S1x1x4096 .f32) (u : Fin 1) (r : Fin 1024) (l : Fin 4096) :
    k0_pay2 x1 (ix3 u r l) = x1 (ix3 (0 : Fin 1) (0 : Fin 1) l) := by
  unfold k0_pay2
  simp only [shapeCast_self]
  exact broadcastTo_apply x1 broadcasts_S1x1x4096_S1x1024x4096 (ix3 u r l) (ix3 (0 : Fin 1) (0 : Fin 1) l) (fun a => match a with
    | ⟨0, _⟩ => by show (0 : Fin 1).val = if (1 : Nat) = 1 then 0 else u.val; rw [if_pos rfl]; rfl
    | ⟨1, _⟩ => by show (0 : Fin 1).val = if (1 : Nat) = 1 then 0 else r.val; rw [if_pos rfl]; rfl
    | ⟨2, _⟩ => by show l.val = if (4096 : Nat) = 1 then 0 else l.val; rw [if_neg (by decide)])

end Cert.KernelIdeal.Body

end
-- ==== Proof.Entry.lean ====
/-
  What the region finds in its two input arrays. Before the region the program transposes the table `x` (4096 × 4) to
  4 × 4096 and lays the transposed table out twice: as a 4 × 4096 × 1 array of columns and as a 4 × 1 × 4096 array of
  rows. Neither layout moves a value, so the first array at `(b, r, 0)` and the second at `(b, 0, l)` are the table at
  `(r, b)`, respectively `(l, b)`.
-/
import proofs.«106511_j89575837926133_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- The array of columns, as the operations before the region compute it from the table. -/
theorem columns (c : Dev nD) : (V m c main_v1 : S4x4096x1.Idx → Elt F .f32)
    = broadcastInDim S4x4096x1 ![0, 1] bcast_S4x4096_S4x4096x1_0_1
        (transpose S4x4096 [1, 0] (m ((c : Thread nD τ).loc main_arg0)) transposes_S4096x4_S4x4096_1_0) := by
  dsimp only [Gen.V, Gen.hostOps0]; after_results

/-- The array of rows, as the operations before the region compute it from the table. -/
theorem rows (c : Dev nD) : (V m c main_v2 : S4x1x4096.Idx → Elt F .f32)
    = broadcastInDim S4x1x4096 ![0, 2] bcast_S4x4096_S4x1x4096_0_2
        (transpose S4x4096 [1, 0] (m ((c : Thread nD τ).loc main_arg0)) transposes_S4096x4_S4x4096_1_0) := by
  dsimp only [Gen.V, Gen.hostOps0]; after_results

/-- The array of columns at `(b, r, z)` is the table at `(r, b)`. -/
theorem columns_apply (c : Dev nD) (b : Fin 4) (r : Fin 4096) (z : Fin 1) :
    V m c main_v1 (ix3 b r z) = m ((c : Thread nD τ).loc main_arg0) (ix2 r b) := by
  refine (congrFun (columns m c) (ix3 b r z)).trans ?_
  refine (broadcastInDim_apply _ bcast_S4x4096_S4x4096x1_0_1 _ (ix3 b r z) (ix2 b r) (fun a => match a with
    | ⟨0, _⟩ => by show b.val = if (4 : Nat) = 1 then 0 else b.val; rw [if_neg (by decide)]
    | ⟨1, _⟩ => by show r.val = if (4096 : Nat) = 1 then 0 else r.val; rw [if_neg (by decide)])).trans ?_
  exact transpose_apply [1, 0] _ transposes_S4096x4_S4x4096_1_0 (ix2 b r) (ix2 r b) (fun a => match a with
    | ⟨0, _⟩ => rfl
    | ⟨1, _⟩ => rfl)

/-- The array of rows at `(b, z, l)` is the table at `(l, b)`. -/
theorem rows_apply (c : Dev nD) (b : Fin 4) (z : Fin 1) (l : Fin 4096) :
    V m c main_v2 (ix3 b z l) = m ((c : Thread nD τ).loc main_arg0) (ix2 l b) := by
  refine (congrFun (rows m c) (ix3 b z l)).trans ?_
  refine (broadcastInDim_apply _ bcast_S4x4096_S4x1x4096_0_2 _ (ix3 b z l) (ix2 b l) (fun a => match a with
    | ⟨0, _⟩ => by show b.val = if (4 : Nat) = 1 then 0 else b.val; rw [if_neg (by decide)]
    | ⟨1, _⟩ => by show l.val = if (4096 : Nat) = 1 then 0 else l.val; rw [if_neg (by decide)])).trans ?_
  exact transpose_apply [1, 0] _ transposes_S4096x4_S4x4096_1_0 (ix2 b l) (ix2 l b) (fun a => match a with
    | ⟨0, _⟩ => rfl
    | ⟨1, _⟩ => rfl)

end Cert.KernelIdeal.Entry

end
-- ==== Proof.Result.lean ====
/-
  The kernel's result array is the specification. The grid has 2 × 4 × 4 points `(g, b, s)`, visited in row-major order,
  so the first sixteen points have `g = 0` and run the body's first branch, the last sixteen have `g = 1` and run the
  second. Point `(g, b, s)` writes block `(4 g + b, s, 0)` of the result, a 1 × 1024 × 4096 slab: channel `4 g + b`, rows
  `1024 s … 1024 s + 1023`, all lanes. Its column block is block `(b, s, 0)` of the array of columns — the table's
  entries `(1024 s + r, b)` — and its row block is block `(b, 0, 0)` of the array of rows — the table's entries `(l, b)`.
  So at `g = 0` the slab's entry `(r, l)` is the table at `(1024 s + r, b)`, the specification's first branch at channel
  `b < 4`; at `g = 1` it is the table at `(l, b)`, the second branch at channel `4 + b`. The thirty-two slabs are
  written back at every point and tile the array: entry `(ch, i, j)` lies in the slab of block `(ch, i / 1024, 0)`.
-/
import proofs.«106511_j89575837926133_2_alg».proof.Proof.Gen.KernelIdeal.Value
import proofs.«106511_j89575837926133_2_alg».proof.Proof.Spec
import proofs.«106511_j89575837926133_2_alg».proof.Proof.Body
import proofs.«106511_j89575837926133_2_alg».proof.Proof.Entry

noncomputable section

namespace Cert.KernelIdeal.Result

open Cert.KernelIdeal Cert.KernelIdeal.Gen
open Idealize.ShloMosaic Idealize.ShloMosaic.TcCoe Idealize.SL.Sem Idealize.ShloMosaic.ValueIdx
open Idealize.ShloMosaic.Pipeline (Dat)
open Cert.Replicate

variable {F : FTy → Type} [FloatOps F]
variable (m : (ℓ : Loc nD τ sig) → Buf (Elt F) ℓ) (ρ : Dev nD → PrngReg)

/-- The three index maps over the grid: the two inputs' block indices are in range and zero where their block is the
    whole axis; the output's row-tile index is the column block's, its lane index is zero, and its channel index is the
    inputs' class index in the first half of the grid and four more in the second. -/
theorem index_maps : ∀ t : Fin cfg0.N,
    win0_0.index t (0 : Fin 3) < 4 ∧ win0_0.index t (1 : Fin 3) < 4 ∧ win0_0.index t (2 : Fin 3) = 0
    ∧ win0_1.index t (0 : Fin 3) < 4 ∧ win0_1.index t (1 : Fin 3) = 0 ∧ win0_1.index t (2 : Fin 3) = 0
    ∧ win0_2.index t (1 : Fin 3) = win0_0.index t (1 : Fin 3) ∧ win0_2.index t (2 : Fin 3) = 0
    ∧ (t.val < 16 → win0_2.index t (0 : Fin 3) = win0_0.index t (0 : Fin 3))
    ∧ (16 ≤ t.val → win0_2.index t (0 : Fin 3) = win0_1.index t (0 : Fin 3) + 4) :=
  (by decide +kernel : ∀ t : Fin grid0.N, _)

/-- Every slab of the result is some point's: channel `q0`, row tile `q1`. -/
theorem index_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- The column block of point `t` at row `r` is the table at row `1024 s + r` and class `b`, for the point's
    `(b, s)`. -/
theorem colBlock_apply (c : Dev nD) (t : Fin cfg0.N) (r : Fin 1024) (R : Fin 4096) (B : Fin 4)
    (hB : win0_0.index t (0 : Fin 3) = B.val) (hR : win0_0.index t (1 : Fin 3) * 1024 + r.val = R.val) :
    iblk m c 0 t (ix3 (0 : Fin 1) r (0 : Fin 1)) = m ((c : Thread nD τ).loc main_arg0) (ix2 R B) := by
  obtain ⟨_, _, e02, _⟩ := index_maps t
  unfold iblk
  rw [View.read_apply]
  show V m c main_v1 _ = _
  refine (congrArg (V m c main_v1) ?_).trans (Entry.columns_apply m c B R (0 : Fin 1))
  funext a; apply Fin.ext
  match a with
  | ⟨0, _⟩ => show win0_0.index t (0 : Fin 3) * 1 + 1 * 0 = B.val; omega
  | ⟨1, _⟩ => show win0_0.index t (1 : Fin 3) * 1024 + 1 * r.val = R.val; omega
  | ⟨2, _⟩ => show win0_0.index t (2 : Fin 3) * 1 + 1 * 0 = 0; omega

/-- The row block of point `t` at lane `l` is the table at row `l` and class `b`, for the point's `b`. -/
theorem rowBlock_apply (c : Dev nD) (t : Fin cfg0.N) (l L : Fin 4096) (B : Fin 4)
    (hB : win0_1.index t (0 : Fin 3) = B.val) (hL : l.val = L.val) :
    iblk m c 1 t (ix3 (0 : Fin 1) (0 : Fin 1) l) = m ((c : Thread nD τ).loc main_arg0) (ix2 L B) := by
  obtain ⟨_, _, _, _, e11, e12, _⟩ := index_maps t
  unfold iblk
  rw [View.read_apply]
  show V m c main_v2 _ = _
  refine (congrArg (V m c main_v2) ?_).trans (Entry.rows_apply m c B (0 : Fin 1) L)
  funext a; apply Fin.ext
  match a with
  | ⟨0, _⟩ => show win0_1.index t (0 : Fin 3) * 1 + 1 * 0 = B.val; omega
  | ⟨1, _⟩ => show win0_1.index t (1 : Fin 3) * 1 + 1 * 0 = 0; omega
  | ⟨2, _⟩ => show win0_1.index t (2 : Fin 3) * 4096 + 1 * l.val = L.val; omega

/-- WHAT POINT `t` WRITES BACK is slab `t` of the specification of the table as launched. -/
theorem flushed_eq (c : Dev nD) (t : Fin cfg0.N) :
    (dats m 0 c).flushed 2 t
      = ((cfg0.win 2).blk t).view.read (Elt F) (planes (m ((c : Thread nD τ).loc main_arg0))) := by
  obtain ⟨b00, b01, e02, b10, e11, e12, e21, e22, eA, eB⟩ := index_maps t
  by_cases h : t.val < 16
  · rw [Value.flushed2_A m c t h (by omega), Body.spreadCols]
    refine funext fun (y : S1x1024x4096.Idx) => ?_
    rw [View.read_apply]
    obtain ⟨u, r, l, rfl⟩ : ∃ (u : Fin 1) (r : Fin 1024) (l : Fin 4096), y = ix3 u r l := ⟨y 0, y 1, y 2, eq_ix3 y⟩
    show k0_pay1 (iblk m c 0 t) (ix3 u r l) = _
    refine (Body.spreadCols_apply (iblk m c 0 t) u r l).trans ?_
    have hu : u.val < 1 := u.isLt
    have hr : r.val < 1024 := r.isLt
    have hlow : ((((cfg0.win 2).blk t).view.emb (ix3 u r l)) 0).val < 4 := by
      show win0_2.index t (0 : Fin 3) * 1 + 1 * u.val < 4
      have := eA h; omega
    rw [planes_low _ _ hlow]
    refine colBlock_apply m c t r _ _ ?_ ?_
    · show win0_0.index t (0 : Fin 3) = win0_2.index t (0 : Fin 3) * 1 + 1 * u.val
      have := eA h; omega
    · show win0_0.index t (1 : Fin 3) * 1024 + r.val = win0_2.index t (1 : Fin 3) * 1024 + 1 * r.val
      omega
  · rw [Value.flushed2_B m c t h (by omega), Body.spreadRows]
    refine funext fun (y : S1x1024x4096.Idx) => ?_
    rw [View.read_apply]
    obtain ⟨u, r, l, rfl⟩ : ∃ (u : Fin 1) (r : Fin 1024) (l : Fin 4096), y = ix3 u r l := ⟨y 0, y 1, y 2, eq_ix3 y⟩
    show k0_pay2 (iblk m c 1 t) (ix3 u r l) = _
    refine (Body.spreadRows_apply (iblk m c 1 t) u r l).trans ?_
    have hu : u.val < 1 := u.isLt
    have hl : l.val < 4096 := l.isLt
    have hhigh : ¬((((cfg0.win 2).blk t).view.emb (ix3 u r l)) 0).val < 4 := by
      show ¬(win0_2.index t (0 : Fin 3) * 1 + 1 * u.val < 4)
      have := eB (by omega); omega
    rw [planes_high _ _ hhigh]
    refine rowBlock_apply m c t l _ _ ?_ ?_
    · show win0_1.index t (0 : Fin 3) = win0_2.index t (0 : Fin 3) * 1 + 1 * u.val - 4
      have := eB (by omega); omega
    · show l.val = win0_2.index t (2 : Fin 3) * 4096 + 1 * l.val
      omega

/-- An index of the result lies in point `t`'s slab exactly when each coordinate lies in the slab's range on its axis. -/
theorem mem_slab (t : Fin cfg0.N) (i : S8x4096x4096.Idx) :
    i ∈ ((cfg0.win 2).blk t).view.set ↔ ∀ a : Fin 3, win0_2.index t a * S1x1024x4096.size a ≤ (i a).val
      ∧ (i a).val < win0_2.index t a * S1x1024x4096.size a + S1x1024x4096.size a := by
  show i ∈ ((View.whole main_v3).slice (win0_2.rect t)).set ↔ _
  rw [View.set_slice_whole, Rect.mem_set_unit]
  exact Iff.rfl

/-- THE SLABS TILE THE RESULT: entry `(ch, i, j)` lies in the slab of channel `ch` and row tile `i / 1024`, and every
    point writes its slab back. -/
theorem covered (i : S8x4096x4096.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 4096 := (i 2).isLt
  obtain ⟨t, ht⟩ := index_onto ⟨(i 0).val, h0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_slab]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 4096 ≤ (i 2).val ∧ (i 2).val < win0_2.index t (2 : Fin 3) * 4096 + 4096
    omega

/-- THE RESULT ARRAY after the run is the specification of the table as launched. -/
theorem final (c : Dev nD) :
    (dats m 0 c).arrAt 2 cfg0.N = planes (m ((c : Thread nD τ).loc main_arg0)) :=
  (dats m 0 c).arrAt_eq_of_cover 2 (planes (m ((c : Thread nD τ).loc main_arg0)))
    (fun t _ => flushed_eq m c t) covered

/-- The run, read: every weakly fair execution ends with the result array at the specification of the table and the
    table unchanged. -/
theorem run : θ_run defs (onTc (τ := τ) (main (F := F))) ⟨m, fun _ => 0, ρ⟩ fun r => ∀ c : Dev nD,
      r.2.mem ((c : Thread nD τ).loc main_v3) = planes (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Result

end
-- ==== Proof.lean ====
/-
  The certificate of a replication kernel against its plain reference. From a table `x` of 4096 rows and 4 columns
  both programs build eight 4096 × 4096 planes: plane `c < 4` repeats column `c` of the table along the last axis,
  `out[c, i, j] = x[i, c]`, and plane `c ≥ 4` repeats column `c - 4` along the middle axis, `out[c, i, j] = x[j, c - 4]`.
  The reference does it with a transpose, four broadcasts and a join of two groups of four planes; the kernel transposes
  the table, lays it out as an array of columns and an array of rows, and then fills the result slab by slab over a
  2 × 4 × 4 grid, each slab one channel by 1024 rows by all lanes, broadcasting a column block in the first half of the
  grid and a row block in the second.

  Both results are shown equal to one function of the table (`Cert.Replicate.planes`): the reference's by reading its
  operations at an index, the kernel's by reading what each grid point writes back and checking that the thirty-two
  slabs tile the result. No value is ever computed with, only moved, so the two arrays agree entry by entry for every
  table, finite or not, and the precondition is not used. The idealization rewrote nothing, so there is nothing to
  preserve. The three programs' runs terminate without fault and leave the table unchanged: the two kernels' by their
  generated frames, the reference's by its generated run.
-/
import proofs.«106511_j89575837926133_2_alg».proof.Defs
import proofs.«106511_j89575837926133_2_alg».proof.Proof.Gen.Kernel
import proofs.«106511_j89575837926133_2_alg».proof.Proof.Gen.Kernel.Skeleton
import proofs.«106511_j89575837926133_2_alg».proof.Proof.Gen.Kernel.Launch
import proofs.«106511_j89575837926133_2_alg».proof.Proof.Gen.Kernel.Points
import proofs.«106511_j89575837926133_2_alg».proof.Proof.Gen.Kernel.Frame
import proofs.«106511_j89575837926133_2_alg».proof.Proof.Gen.KernelIdeal
import proofs.«106511_j89575837926133_2_alg».proof.Proof.Gen.KernelIdeal.Skeleton
import proofs.«106511_j89575837926133_2_alg».proof.Proof.Gen.KernelIdeal.Launch
import proofs.«106511_j89575837926133_2_alg».proof.Proof.Gen.KernelIdeal.Points
import proofs.«106511_j89575837926133_2_alg».proof.Proof.Gen.KernelIdeal.Frame
import proofs.«106511_j89575837926133_2_alg».proof.Proof.Gen.ReferenceIdeal
import proofs.«106511_j89575837926133_2_alg».proof.Proof.Gen.Pre_finite_inputs
import proofs.«106511_j89575837926133_2_alg».proof.Proof.Gen.KernelIdeal.Value
import proofs.«106511_j89575837926133_2_alg».proof.Proof.Gen.ReferenceIdeal.Run
import proofs.«106511_j89575837926133_2_alg».proof.Proof.Gen.ReferenceIdeal.Read
import proofs.«106511_j89575837926133_2_alg».proof.Proof.Spec
import proofs.«106511_j89575837926133_2_alg».proof.Proof.RefValue
import proofs.«106511_j89575837926133_2_alg».proof.Proof.Result
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves the table as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the table, the kernel's result array and the reference's both end at the replicated
    planes of that table: the same array, entry by entry. -/
theorem algebraic : Cert.algebraic_KernelIdeal_ReferenceIdeal := by
  intro m ρ m' ρ' _ hagree
  refine ⟨fun c => Cert.Replicate.planes (m ((c.tc : Thread Cert.KernelIdeal.nD Cert.KernelIdeal.τ).loc Cert.KernelIdeal.main_arg0)),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
